-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x128 .f32) (main_arg3 : FVec F S128 .f32) (main_arg4 : FVec F S512x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S512x256 : Shape := ⟨2, ![512, 256]⟩
abbrev S50000x256 : Shape := ⟨2, ![50000, 256]⟩
abbrev S5000x512 : Shape := ⟨2, ![5000, 512]⟩
abbrev S5000x256 : Shape := ⟨2, ![5000, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 88
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S512x256, .f32⟩
  | .hbm, ⟨47, _⟩ => ⟨S50000x256, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S5000x256, .f32⟩
  | .local _ .vmem, ⟨4, _⟩ => ⟨S5000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  concatenates_S512x128_S512x128_S512x256_d1 : Shape.Concatenates [S512x128, S512x128] S512x256 1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x256_S5000x256_1_0_0_1_n_n_wf : DotDims.WF S5000x512 S512x256 S5000x256 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Tail.lean ====
/-
  What both programs do with a product h = x · W once they have it: the message passing of one graph convolution.

  The 850000 edges are the 800000 given ones followed by one self loop per node: `srcs e` and `dsts e` are their
  source and destination nodes (the two rows of the edge list, each followed by 0 … 49999). A node number read as a
  signed word is wrapped round once if negative (`wrap`), as array indexing does. The degree of a node counts the
  edges that end in it (`deg`: ones scattered and added at the destinations); `dinv` is its inverse square root,
  zero where the degree is not positive; the weight of an edge is the product of `dinv` at its two ends (`norm`).
  The result (`tail h e b`) gathers row `src` of h for every edge, scales it by the edge's weight, adds the scaled
  rows up at the destination nodes, and adds the bias b to every row.

  The reference's two results are this function of its two products x · W_mu and x · W_logstd.
-/
import proofs.«117502_j22308060136297_1_alg».proof.Proof.RefRunP

noncomputable section

namespace Cert.ReferenceIdeal.Tail

open Cert.ReferenceIdeal Cert.ReferenceIdeal.Gen Idealize.ShloMosaic Idealize.ShloMosaic.TcCoe Idealize.SL.Sem

variable {F : FTy → Type} [FloatOps F]

/-- The source node of every edge: row 0 of the edge list, then one self loop per node. -/
def srcs (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The destination node of every edge: row 1 of the edge list, then one self loop per node. -/
def dsts (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number as an index: a negative one has the number of nodes added. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The number of edges ending in each node. -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dsts (F := F) e)) (broadcastInDim S850000 ![] bcast_S_S850000 (constant S_ .f32 0x3F800000#32))

/-- The inverse square root of the degree, zero where the degree is not positive. -/
def dinv (e : (⟨S2x800000, .i32⟩ : BufTy).Contents (Elt F)) : (⟨S50000, .f32⟩ : BufTy).Contents (Elt F) :=
  select (cmpf (F := F) .ogt (deg (F := F) e) (broadcastInDim S50000 ![] bcast_S_S50000 (constant S_ .f32 0x00000000#32))) (Host.rsqrt (deg (F := F) e)) (broadcastInDim S50000 ![] bcast_S_S50000 (id (constant S_ .f32 0x00000000#32)))

/-- The weight of every edge: the product of `dinv` at its source and at its destination. -/
def norm (e : (⟨S2x800000, .i32⟩ : BufTy).Contents (Elt F)) : (⟨S850000, .f32⟩ : BufTy).Contents (Elt F) :=
  mulf (Host.gather gather_S50000_S850000x1_S850000_n_0_n_n_0_1_1 (dinv (F := F) e) (broadcastInDim S850000x1 ![0] bcast_S850000_S850000x1_0 (wrap (F := F) (srcs (F := F) e)))) (Host.gather gather_S50000_S850000x1_S850000_n_0_n_n_0_1_1 (dinv (F := F) e) (broadcastInDim S850000x1 ![0] bcast_S850000_S850000x1_0 (wrap (F := F) (dsts (F := F) e))))

/-- The convolution's output from the product h: the rows of h gathered at the sources, scaled by the edge weights and
    added up at the destinations, plus the bias. -/
def tail (h : (⟨S50000x128, .f32⟩ : BufTy).Contents (Elt F)) (e : (⟨S2x800000, .i32⟩ : BufTy).Contents (Elt F))
    (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (dsts (F := F) e)) (mulf (Host.gather gather_S50000x128_S850000x1_S850000x128_1_0_n_n_0_1_1128 h (broadcastInDim S850000x1 ![0] bcast_S850000_S850000x1_0 (wrap (F := F) (srcs (F := F) e)))) (broadcastInDim S850000x128 ![0, 1] bcast_S850000x1_S850000x128_0_1 (broadcastInDim S850000x1 ![0] bcast_S850000_S850000x1_0 (norm (F := F) e))))) (broadcastInDim S50000x128 ![0, 1] bcast_S1x128_S50000x128_0_1 (broadcastInDim S1x128 ![1] bcast_S128_S1x128_1 b))

/-- The reference's first result is `tail` of x · W_mu. -/
theorem res_mu (m : (ℓ : Loc nD τ sig) → Buf (Elt F) ℓ) (c : Dev nD) :
    Cert.ReferenceIdeal.ValueP.res_main_v46 m c
      = tail (F := F) (Host.dotGeneral dot_S50000x512_S512x128_S50000x128_1_0_0_1_n_n none
          (m ((c.tc : Thread nD τ).loc main_arg0)) (m ((c.tc : Thread nD τ).loc main_arg2)))
        (m ((c.tc : Thread nD τ).loc main_arg1)) (m ((c.tc : Thread nD τ).loc main_arg3)) := by
  unfold Cert.ReferenceIdeal.ValueP.res_main_v46 tail norm dinv deg wrap srcs dsts
  rfl

/-- The reference's second result is `tail` of x · W_logstd. -/
theorem res_logstd (m : (ℓ : Loc nD τ sig) → Buf (Elt F) ℓ) (c : Dev nD) :
    Cert.ReferenceIdeal.ValueP.res_main_v63 m c
      = tail (F := F) (Host.dotGeneral dot_S50000x512_S512x128_S50000x128_1_0_0_1_n_n none
          (m ((c.tc : Thread nD τ).loc main_arg0)) (m ((c.tc : Thread nD τ).loc main_arg4)))
        (m ((c.tc : Thread nD τ).loc main_arg1)) (m ((c.tc : Thread nD τ).loc main_arg5)) := by
  unfold Cert.ReferenceIdeal.ValueP.res_main_v63 tail norm dinv deg wrap srcs dsts
  rfl

end Cert.ReferenceIdeal.Tail

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.KernelBlocks.lean ====
/-
  The matrix product the kernel computes, as one array. The grid has ten points; point t multiplies rows
  5000 t … 5000 t + 4999 of the left matrix x : [50000, 512] by the whole right matrix w : [512, 256] and writes
  rows 5000 t … 5000 t + 4999 of the result. At the exact values the rounding of the operands on the way into the
  matrix unit is the identity and the product into a zero accumulator is the plain sum, so the block point t writes is
  the block of the one array prod x w (r, q) = sum over k of x (r, k) * w (k, q); the ten blocks tile the [50000, 256]
  result, which therefore ends holding prod x w.
-/
import proofs.«117502_j22308060136297_1_alg».proof.Proof.Gen.KernelIdeal.Frame
import proofs.«117502_j22308060136297_1_alg».proof.Proof.LibMatmulPlain
import Idealize.ShloMosaic.Lib.Pipeline.Value
import Idealize.ShloMosaic.Lib.ValueIdx
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The product of a [50000, 512] matrix and a [512, 256] matrix, entry by entry. -/
def prod (x : S50000x512.Idx → EReal) (w : S512x256.Idx → EReal) : S50000x256.Idx → EReal :=
  fun j => ∑ k : Fin 512, x (ix2 (j 0) k) * w (ix2 k (j 1))

theorem prod_apply (x : S50000x512.Idx → EReal) (w : S512x256.Idx → EReal) (r : Fin 50000) (q : Fin 256) :
    prod x w (ix2 r q) = ∑ k : Fin 512, x (ix2 r k) * w (ix2 k q) := rfl

theorem hz : (![0, 0] : Fin 2 → Nat) = fun _ => 0 := funext fun a => by fin_cases a <;> rfl

/-- What the body stores, at an entry of the block: the operands' roundings are the identity at the exact values and
    the product into the zero accumulator is the sum over the contracted axis. -/
theorem pay_apply (v0 : FVec Ideal S5000x512 .f32) (v2 : FVec Ideal S512x256 .f32) (r : Fin 5000) (q : Fin 256) :
    k0_pay1 (F := Ideal) v0 v2 (ix2 r q) = ∑ k : Fin 512, v0 (ix2 r k) * v2 (ix2 k q) := by
  unfold k0_pay1
  refine (Cert.LibMatmulPlain.matmul_zero_apply dot_S5000x512_S512x256_S5000x256_1_0_0_1_n_n rfl rfl rfl rfl rfl rfl
    none _ _ r q).trans ?_
  refine Finset.sum_congr rfl fun k _ => ?_
  rw [shapeCast_self]
  rfl

/-- The printed index maps over the grid: the left matrix's and the result's row block is the point's, their column block
    and the right matrix's block are the first. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the left matrix's block at point t is row 5000 t + r of the matrix. -/
theorem lhs_block (c : Dev nD) (t : Fin cfg0.N) (r : Fin 5000) (k : Fin 512) (R : Fin 50000)
    (hR : R.val = t.val * 5000 + r.val) :
    (iblk m c 0 t : FVec Ideal S5000x512 .f32) (ix2 r k) = (V m c main_arg0 : S50000x512.Idx → EReal) (ix2 R k) := by
  obtain ⟨e0, e1, -, -, -, -⟩ := idx_facts t
  unfold iblk
  rw [View.read_apply]
  show V m c main_arg0 _ = V m c main_arg0 _
  refine congrArg _ (funext fun a => Fin.ext ?_)
  match a with
  | ⟨0, _⟩ => show win0_0.index t (0 : Fin 2) * 5000 + 1 * r.val = R.val; omega
  | ⟨1, _⟩ => show win0_0.index t (1 : Fin 2) * 512 + 1 * k.val = k.val; omega

/-- The right matrix's block at every point is the whole matrix. -/
theorem rhs_block (c : Dev nD) (t : Fin cfg0.N) (k : Fin 512) (q : Fin 256) :
    (iblk m c 1 t : FVec Ideal S512x256 .f32) (ix2 k q) = (V m c main_v30 : S512x256.Idx → EReal) (ix2 k q) := by
  obtain ⟨-, -, e2, e3, -, -⟩ := idx_facts t
  unfold iblk
  rw [View.read_apply]
  show V m c main_v30 _ = V m c main_v30 _
  refine congrArg _ (funext fun a => Fin.ext ?_)
  match a with
  | ⟨0, _⟩ => show win0_1.index t (0 : Fin 2) * 512 + 1 * k.val = k.val; omega
  | ⟨1, _⟩ => show win0_1.index t (1 : Fin 2) * 256 + 1 * q.val = q.val; omega

/-- What point t writes back is block t of the product of the two arrays as the region finds them. -/
theorem flushed_eq (c : Dev nD) (t : Fin cfg0.N) :
    (dats m 0 c).flushed 2 t
      = ((cfg0.win 2).blk t).view.read (Elt Ideal) (prod (V m c main_arg0) (V m c main_v30)) := by
  show (cfg0.win 2).cut (grid0.coords t) ((dats m 0 c).after 2 t) = _
  rw [after0_2]
  unfold out0_2
  rw [View.canon_unit_zero hz]
  simp only [View.ld_unit_zero (S := S5000x512) hz, View.ld_unit_zero (S := S512x256) hz]
  obtain ⟨-, -, -, -, e4, e5⟩ := idx_facts t
  have hN : t.val < 10 := lt_of_lt_of_eq t.isLt N_0
  funext j
  obtain ⟨r, q, rfl⟩ : ∃ (r : Fin 5000) (q : Fin 256), j = ix2 r q := ⟨j 0, j 1, eq_ix2 j⟩
  refine (pay_apply _ _ r q).trans ?_
  rw [View.read_apply]
  have hemb : ((cfg0.win 2).blk t).view.emb (ix2 r q)
      = (ix2 (⟨t.val * 5000 + r.val, by have := r.isLt; omega⟩ : Fin 50000) q : S50000x256.Idx) := by
    funext a; apply Fin.ext
    match a with
    | ⟨0, _⟩ => show win0_2.index t (0 : Fin 2) * 5000 + 1 * r.val = t.val * 5000 + r.val; omega
    | ⟨1, _⟩ => show win0_2.index t (1 : Fin 2) * 256 + 1 * q.val = q.val; omega
  rw [hemb, prod_apply]
  refine Finset.sum_congr rfl fun k _ => ?_
  rw [lhs_block m c t r k ⟨t.val * 5000 + r.val, by have := r.isLt; omega⟩ rfl, rhs_block m c t k q]

/-- An index of the result is in point t's block iff its row is in rows 5000 t … 5000 t + 4999. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v31).slice (win0_2.rect t)).set ↔ _
  rw [View.set_slice_whole, Rect.mem_set_unit]
  exact Iff.rfl

/-- Every entry of the result lies in the block of the point its row falls in. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e5]; omega

/-- The result array after the region: the product of the left matrix and the right matrix as the region finds them. -/
theorem final (c : Dev nD) : (dats m 0 c).arrAt 2 cfg0.N = prod (V m c main_arg0) (V m c main_v30) :=
  (dats m 0 c).arrAt_eq_of_cover 2 (prod (V m c main_arg0) (V m c main_v30)) (fun t _ => flushed_eq m c t) cover

end Cert.KernelIdeal.Blocks

end
-- ==== Proof.KernelHost.lean ====
/-
  The host side of the kernel's program, read back. Before the region the program computes, from the edge list alone,
  the edges' source and destination nodes and their weights, exactly as the reference does, and joins W_mu and W_logstd
  side by side into the [512, 256] right operand. After the region it cuts the [50000, 256] product into its two column
  halves and passes each, with its bias, through the same message passing as the reference (`tail`). So each of the
  kernel's two results is `tail` of a column half of the array the region leaves.
-/
import proofs.«117502_j22308060136297_1_alg».proof.Proof.Gen.KernelIdeal.Frame
import proofs.«117502_j22308060136297_1_alg».proof.Proof.Tail
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Cert.ReferenceIdeal.Tail (srcs dsts norm tail)

variable {F : FTy → Type} [FloatOps F]
variable (m : (ℓ : Loc nD τ sig) → Buf (Elt F) ℓ)

/-- When the region is entered the buffer of the edges' sources holds them. -/
theorem V_srcs (c : Dev nD) : V m c main_v3 = srcs (F := F) (m ((c : Thread nD τ).loc main_arg1)) := by
  dsimp only [V, V0]
  simp only [hostOps0, hostOps0_1, hostOps0_2, List.flatten_cons, List.flatten_nil, List.append_nil, List.cons_append,
    List.nil_append]
  after_results_simp
  repeat (first | rw [reshape_result] | (rw [reshape_result_ne]; rotate_left; decide) | after_results_simp)
  all_goals rfl

/-- When the region is entered the buffer of the edges' destinations holds them. -/
theorem V_dsts (c : Dev nD) : V m c main_v6 = dsts (F := F) (m ((c : Thread nD τ).loc main_arg1)) := by
  dsimp only [V, V0]
  simp only [hostOps0, hostOps0_1, hostOps0_2, List.flatten_cons, List.flatten_nil, List.append_nil, List.cons_append,
    List.nil_append]
  after_results_simp
  repeat (first | rw [reshape_result] | (rw [reshape_result_ne]; rotate_left; decide) | after_results_simp)
  all_goals rfl

set_option maxHeartbeats 4000000 in
/-- When the region is entered the buffer of the edges' weights holds them. -/
theorem V_norm (c : Dev nD) : V m c main_v29 = norm (F := F) (m ((c : Thread nD τ).loc main_arg1)) := by
  dsimp only [V, V0]
  simp only [hostOps0, hostOps0_1, hostOps0_2, List.flatten_cons, List.flatten_nil, List.append_nil, List.cons_append,
    List.nil_append]
  after_results_simp
  repeat (first | rw [reshape_result] | (rw [reshape_result_ne]; rotate_left; decide) | after_results_simp)
  all_goals rfl

/-- The region's right operand is W_mu and W_logstd joined side by side. -/
theorem V_joined (c : Dev nD) : V m c main_v30
    = concatenate S512x256 1 [⟨S512x128, m ((c : Thread nD τ).loc main_arg2)⟩, ⟨S512x128, m ((c : Thread nD τ).loc main_arg4)⟩]
        concatenates_S512x128_S512x128_S512x256_d1 := by
  dsimp only [V, V0]
  simp only [hostOps0, hostOps0_1, hostOps0_2, List.flatten_cons, List.flatten_nil, List.append_nil, List.cons_append,
    List.nil_append]
  after_results_simp
  repeat (first | rw [reshape_result] | (rw [reshape_result_ne]; rotate_left; decide) | after_results_simp)
  all_goals rfl

/-- The kernel's first result: the message passing of the left column half of the region's product, with the first bias. -/
theorem out_mu (c : Dev nD) :
    Pipeline.afterTail₀ cfgs (dats m) 0 (V0 m) [hostOps1] c main_v49
      = tail (F := F) (extractStridedSlice S50000x128 ![0, 0] ((dats m 0 c).arrAt 2 cfg0.N) slices_S50000x256_S50000x128_0_0)
          (m ((c : Thread nD τ).loc main_arg1)) (m ((c : Thread nD τ).loc main_arg3)) := by
  unfold Pipeline.afterTail₀
  generalize hW : Pipeline.withArrays _ c (V0 m c) _ = W
  have hprod : W (Proc.devRef .tc main_v31) = (dats m 0 c).arrAt 2 cfg0.N := by
    rw [← hW]; exact Pipeline.withArrays_arr spec0 launch0.win.arr_inj c _ _ 2
  have hsrc : W (Proc.devRef .tc main_v3) = srcs (F := F) (m ((c : Thread nD τ).loc main_arg1)) := by
    rw [← hW]
    exact (Pipeline.withArrays_of_ne _ c (V0 m c) _ main_v3 (by exact (by decide : ∀ w, Pipeline.arrRef spec0 w ≠ main_v3))).trans (V_srcs m c)
  have hdst : W (Proc.devRef .tc main_v6) = dsts (F := F) (m ((c : Thread nD τ).loc main_arg1)) := by
    rw [← hW]
    exact (Pipeline.withArrays_of_ne _ c (V0 m c) _ main_v6 (by exact (by decide : ∀ w, Pipeline.arrRef spec0 w ≠ main_v6))).trans (V_dsts m c)
  have hnorm : W (Proc.devRef .tc main_v29) = norm (F := F) (m ((c : Thread nD τ).loc main_arg1)) := by
    rw [← hW]
    exact (Pipeline.withArrays_of_ne _ c (V0 m c) _ main_v29 (by exact (by decide : ∀ w, Pipeline.arrRef spec0 w ≠ main_v29))).trans (V_norm m c)
  have hbias : W (Proc.devRef .tc main_arg3) = m ((c : Thread nD τ).loc main_arg3) := by
    rw [← hW]
    exact (Pipeline.withArrays_of_ne _ c (V0 m c) _ main_arg3 (by exact (by decide : ∀ w, Pipeline.arrRef spec0 w ≠ main_arg3))).trans (V_main_arg3 m c)
  clear hW
  show StableHlo.after hostOps1 W (Proc.devRef .tc main_v49) = _
  after_results_simp
  rw [hprod, hsrc, hdst, hnorm, hbias]
  rfl

/-- The kernel's second result: the message passing of the right column half of the region's product, with the second bias. -/
theorem out_logstd (c : Dev nD) :
    Pipeline.afterTail₀ cfgs (dats m) 0 (V0 m) [hostOps1] c main_v65
      = tail (F := F) (extractStridedSlice S50000x128 ![0, 128] ((dats m 0 c).arrAt 2 cfg0.N) slices_S50000x256_S50000x128_0_128)
          (m ((c : Thread nD τ).loc main_arg1)) (m ((c : Thread nD τ).loc main_arg5)) := by
  unfold Pipeline.afterTail₀
  generalize hW : Pipeline.withArrays _ c (V0 m c) _ = W
  have hprod : W (Proc.devRef .tc main_v31) = (dats m 0 c).arrAt 2 cfg0.N := by
    rw [← hW]; exact Pipeline.withArrays_arr spec0 launch0.win.arr_inj c _ _ 2
  have hsrc : W (Proc.devRef .tc main_v3) = srcs (F := F) (m ((c : Thread nD τ).loc main_arg1)) := by
    rw [← hW]
    exact (Pipeline.withArrays_of_ne _ c (V0 m c) _ main_v3 (by exact (by decide : ∀ w, Pipeline.arrRef spec0 w ≠ main_v3))).trans (V_srcs m c)
  have hdst : W (Proc.devRef .tc main_v6) = dsts (F := F) (m ((c : Thread nD τ).loc main_arg1)) := by
    rw [← hW]
    exact (Pipeline.withArrays_of_ne _ c (V0 m c) _ main_v6 (by exact (by decide : ∀ w, Pipeline.arrRef spec0 w ≠ main_v6))).trans (V_dsts m c)
  have hnorm : W (Proc.devRef .tc main_v29) = norm (F := F) (m ((c : Thread nD τ).loc main_arg1)) := by
    rw [← hW]
    exact (Pipeline.withArrays_of_ne _ c (V0 m c) _ main_v29 (by exact (by decide : ∀ w, Pipeline.arrRef spec0 w ≠ main_v29))).trans (V_norm m c)
  have hbias : W (Proc.devRef .tc main_arg5) = m ((c : Thread nD τ).loc main_arg5) := by
    rw [← hW]
    exact (Pipeline.withArrays_of_ne _ c (V0 m c) _ main_arg5 (by exact (by decide : ∀ w, Pipeline.arrRef spec0 w ≠ main_arg5))).trans (V_main_arg5 m c)
  clear hW
  show StableHlo.after hostOps1 W (Proc.devRef .tc main_v65) = _
  after_results_simp
  rw [hprod, hsrc, hdst, hnorm, hbias]
  rfl

end Cert.KernelIdeal.HostSide

end
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.Halves.lean ====
/-
  The two column halves of the kernel's product are the reference's two products.

  The kernel multiplies x : [50000, 512] by the [512, 256] matrix whose columns are those of W_mu followed by those of
  W_logstd, and then cuts the [50000, 256] result into its columns 0 … 127 and 128 … 255. An entry (r, q) of the
  first half is the sum over k of x (r, k) * joined (k, q) with q < 128, where joined (k, q) = W_mu (k, q); an entry of
  the second half is the same sum at column q + 128, where joined (k, q + 128) = W_logstd (k, q). These are, term by
  term, the sums that the reference's two matrix products are at the exact values. No algebraic law is used and
  nothing needs to be finite: the two sides are the same sum of the same products.
-/
import proofs.«117502_j22308060136297_1_alg».proof.Proof.KernelBlocks
import proofs.«117502_j22308060136297_1_alg».proof.Proof.LibConcatCols
import proofs.«117502_j22308060136297_1_alg».proof.Proof.LibDotsNT
import proofs.«117502_j22308060136297_1_alg».proof.Proof.Gen.ReferenceIdeal

noncomputable section

open scoped BigOperators

namespace Cert.Proof.Halves

open Idealize.ShloMosaic Idealize.ShloMosaic.ValueIdx
open Cert.KernelIdeal (S50000x512 S512x128 S512x256 S50000x256 S50000x128)
open Cert.KernelIdeal.Blocks (prod prod_apply)

variable (x : S50000x512.Idx → EReal) (a b : S512x128.Idx → EReal)
  (hc : Shape.Concatenates [S512x128, S512x128] S512x256 1)

/-- An entry of the left half of the product with the joined matrix. -/
theorem left_apply (hs : S50000x256.Slices ![0, 0] S50000x128) (r : Fin 50000) (q : Fin 128) :
    extractStridedSlice S50000x128 ![0, 0]
        (prod x (concatenate S512x256 1 [⟨S512x128, a⟩, ⟨S512x128, b⟩] hc)) hs (ix2 r q)
      = ∑ k : Fin 512, x (ix2 r k) * a (ix2 k q) := by
  rw [extractStridedSlice_apply ![0, 0] _ hs (ix2 r q) (ix2 r (⟨q.val, by have := q.isLt; omega⟩ : Fin 256)) (fun d => by
    match d with
    | ⟨0, _⟩ => show r.val = 0 + r.val; omega
    | ⟨1, _⟩ => show q.val = 0 + q.val; omega)]
  rw [prod_apply]
  exact Cert.LibConcatCols.sum_cols_left x a b hc r _ q rfl

/-- An entry of the right half of the product with the joined matrix. -/
theorem right_apply (hs : S50000x256.Slices ![0, 128] S50000x128) (r : Fin 50000) (q : Fin 128) :
    extractStridedSlice S50000x128 ![0, 128]
        (prod x (concatenate S512x256 1 [⟨S512x128, a⟩, ⟨S512x128, b⟩] hc)) hs (ix2 r q)
      = ∑ k : Fin 512, x (ix2 r k) * b (ix2 k q) := by
  rw [extractStridedSlice_apply ![0, 128] _ hs (ix2 r q) (ix2 r (⟨q.val + 128, by have := q.isLt; omega⟩ : Fin 256)) (fun d => by
    match d with
    | ⟨0, _⟩ => show r.val = 0 + r.val; omega
    | ⟨1, _⟩ => show q.val + 128 = 128 + q.val; omega)]
  rw [prod_apply]
  exact Cert.LibConcatCols.sum_cols_right x a b hc r _ q rfl

/-- An entry of the reference's product of x with a [512, 128] matrix. -/
theorem dot_apply (w : S512x128.Idx → EReal) (r : Fin 50000) (q : Fin 128) :
    Host.dotGeneral (F := Ideal) Cert.ReferenceIdeal.dot_S50000x512_S512x128_S50000x128_1_0_0_1_n_n none
        (φ₁ := .f32) (φ₂ := .f32) x w (ix2 r q)
      = ∑ k : Fin 512, x (ix2 r k) * w (ix2 k q) := by
  simp only [Host.dotGeneral]
  exact Cert.LibDotsNT.plain_dotGeneral_apply Cert.ReferenceIdeal.dot_S50000x512_S512x128_S50000x128_1_0_0_1_n_n
    rfl rfl rfl rfl rfl rfl none _ x w r q

/-- The left half of the kernel's product is the reference's product with W_mu. -/
theorem left_eq (hs : S50000x256.Slices ![0, 0] S50000x128) :
    extractStridedSlice S50000x128 ![0, 0]
        (prod x (concatenate S512x256 1 [⟨S512x128, a⟩, ⟨S512x128, b⟩] hc)) hs
      = Host.dotGeneral (F := Ideal) Cert.ReferenceIdeal.dot_S50000x512_S512x128_S50000x128_1_0_0_1_n_n none
        (φ₁ := .f32) (φ₂ := .f32) x a := by
  funext i
  obtain ⟨r, q, rfl⟩ : ∃ (r : Fin 50000) (q : Fin 128), i = ix2 r q := ⟨i 0, i 1, eq_ix2 i⟩
  rw [left_apply x a b hc hs r q, dot_apply x a r q]

/-- The right half of the kernel's product is the reference's product with W_logstd. -/
theorem right_eq (hs : S50000x256.Slices ![0, 128] S50000x128) :
    extractStridedSlice S50000x128 ![0, 128]
        (prod x (concatenate S512x256 1 [⟨S512x128, a⟩, ⟨S512x128, b⟩] hc)) hs
      = Host.dotGeneral (F := Ideal) Cert.ReferenceIdeal.dot_S50000x512_S512x128_S50000x128_1_0_0_1_n_n none
        (φ₁ := .f32) (φ₂ := .f32) x b := by
  funext i
  obtain ⟨r, q, rfl⟩ : ∃ (r : Fin 50000) (q : Fin 128), i = ix2 r q := ⟨i 0, i 1, eq_ix2 i⟩
  rw [right_apply x a b hc hs r q, dot_apply x b r q]

end Cert.Proof.Halves

end
-- ==== Proof.KernelRun.lean ====
/-
  The kernel's run, read: each of its two results is the message passing (`tail`) of a product of x with one of the
  two weight matrices. The region leaves the product of x with the joined matrix (KernelBlocks: the ten row blocks tile
  the result), the host side cuts it into its column halves and passes each through `tail` (KernelHost), and the
  column halves are the products with W_mu and with W_logstd (Halves).
-/
import proofs.«117502_j22308060136297_1_alg».proof.Proof.KernelBlocks
import proofs.«117502_j22308060136297_1_alg».proof.Proof.KernelHost
import proofs.«117502_j22308060136297_1_alg».proof.Proof.Halves

noncomputable section

namespace Cert.KernelIdeal.Read

open Cert.KernelIdeal Cert.KernelIdeal.Gen Idealize.ShloMosaic Idealize.ShloMosaic.TcCoe Idealize.SL.Sem
open Cert.ReferenceIdeal.Tail (tail)

variable (m : (ℓ : Loc nD τ sig) → Buf (Elt Ideal) ℓ) (ρ : Dev nD → PrngReg)

/-- The first result after the run: the message passing of x · W_mu. -/
theorem res_mu (c : Dev nD) :
    Pipeline.afterTail₀ cfgs (dats m) 0 (V0 m) [hostOps1] c main_v49
      = tail (F := Ideal) (Host.dotGeneral (F := Ideal) Cert.ReferenceIdeal.dot_S50000x512_S512x128_S50000x128_1_0_0_1_n_n none (φ₁ := .f32) (φ₂ := .f32)
          (m ((c : Thread nD τ).loc main_arg0)) (m ((c : Thread nD τ).loc main_arg2)))
        (m ((c : Thread nD τ).loc main_arg1)) (m ((c : Thread nD τ).loc main_arg3)) := by
  rw [Cert.KernelIdeal.HostSide.out_mu m c, Cert.KernelIdeal.Blocks.final m c, Cert.KernelIdeal.HostSide.V_joined m c,
    V_main_arg0 m c]
  exact congrArg (fun h => tail (F := Ideal) h _ _) (Cert.Proof.Halves.left_eq _ _ _ _ _)

/-- The second result after the run: the message passing of x · W_logstd. -/
theorem res_logstd (c : Dev nD) :
    Pipeline.afterTail₀ cfgs (dats m) 0 (V0 m) [hostOps1] c main_v65
      = tail (F := Ideal) (Host.dotGeneral (F := Ideal) Cert.ReferenceIdeal.dot_S50000x512_S512x128_S50000x128_1_0_0_1_n_n none (φ₁ := .f32) (φ₂ := .f32)
          (m ((c : Thread nD τ).loc main_arg0)) (m ((c : Thread nD τ).loc main_arg4)))
        (m ((c : Thread nD τ).loc main_arg1)) (m ((c : Thread nD τ).loc main_arg5)) := by
  rw [Cert.KernelIdeal.HostSide.out_logstd m c, Cert.KernelIdeal.Blocks.final m c, Cert.KernelIdeal.HostSide.V_joined m c,
    V_main_arg0 m c]
  exact congrArg (fun h => tail (F := Ideal) h _ _) (Cert.Proof.Halves.right_eq _ _ _ _ _)

/-- Every weakly fair execution of the kernel's program ends with its two results at the message passing of the two
    products, and its arguments unchanged. -/
theorem run : θ_run defs (onTc (τ := τ) (main (F := Ideal))) ⟨m, fun _ => 0, ρ⟩ (fun r => ∀ c : Dev nD,
      r.2.mem ((c.tc : Thread nD τ).loc main_v49)
        = tail (F := Ideal) (Host.dotGeneral (F := Ideal) Cert.ReferenceIdeal.dot_S50000x512_S512x128_S50000x128_1_0_0_1_n_n none (φ₁ := .f32) (φ₂ := .f32)
            (m ((c : Thread nD τ).loc main_arg0)) (m ((c : Thread nD τ).loc main_arg2)))
          (m ((c : Thread nD τ).loc main_arg1)) (m ((c : Thread nD τ).loc main_arg3))
      ∧ r.2.mem ((c.tc : Thread nD τ).loc main_v65)
        = tail (F := Ideal) (Host.dotGeneral (F := Ideal) Cert.ReferenceIdeal.dot_S50000x512_S512x128_S50000x128_1_0_0_1_n_n none (φ₁ := .f32) (φ₂ := .f32)
            (m ((c : Thread nD τ).loc main_arg0)) (m ((c : Thread nD τ).loc main_arg4)))
          (m ((c : Thread nD τ).loc main_arg1)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v49 (Pipeline.mem_restRefs_of main_v49 (by decide) (by decide))).trans (res_mu m c),
      ((h c).2 main_v65 (Pipeline.mem_restRefs_of main_v65 (by decide) (by decide))).trans (res_logstd m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Read

end
-- ==== Proof.lean ====
/-
  The kernel and its reference compute two graph convolutions that share their edge weights: for W in {W_mu, W_logstd},
  out = scatter-add over the edges (dinv[src] * dinv[dst] * (x · W)[src]) at dst, plus the bias. The two programs
  differ only in how they obtain x · W_mu and x · W_logstd: the reference by two matrix products, the kernel by one
  product of x with the two matrices joined side by side — computed in a pipelined region, ten row blocks of 5000 rows,
  the operands rounded to bf16 on the way into the matrix unit — and then cut into its two column halves. At the
  exact values the rounding is the identity and the matrix unit's product is the plain sum, so each column half is, sum
  for sum, the reference's product (Proof/Halves.lean); everything after that is one shared function of the product,
  the edge list and the bias (Proof/Tail.lean), which is never opened. The equality needs no finiteness: no law of
  arithmetic is used beyond the identity of the summands.

  The frames of the two kernel programs are the generated ones; the reference's frame is its run with the results
  dropped; the idealization rewrote nothing, so `preserves` is trivial.
-/
import proofs.«117502_j22308060136297_1_alg».proof.Defs
import proofs.«117502_j22308060136297_1_alg».proof.Proof.Gen.Kernel
import proofs.«117502_j22308060136297_1_alg».proof.Proof.Gen.Kernel.Frame
import proofs.«117502_j22308060136297_1_alg».proof.Proof.Gen.KernelIdeal
import proofs.«117502_j22308060136297_1_alg».proof.Proof.Gen.KernelIdeal.Frame
import proofs.«117502_j22308060136297_1_alg».proof.Proof.Gen.ReferenceIdeal
import proofs.«117502_j22308060136297_1_alg».proof.Proof.Gen.Pre_finite_inputs
import proofs.«117502_j22308060136297_1_alg».proof.Proof.RefRunP
import proofs.«117502_j22308060136297_1_alg».proof.Proof.Tail
import proofs.«117502_j22308060136297_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the two results dropped. -/
theorem frame_referenceIdeal : Cert.frame_ReferenceIdeal := fun m ρ _ =>
  (θ_run Cert.ReferenceIdeal.defs _ _).mono (fun _ h c => (h c).2.2)
    (Cert.ReferenceIdeal.ValueP.run (F := Ideal) m ρ)

/-- Both programs end with each result at the message passing of x · W of arguments that agree. -/
theorem algebraic : Cert.algebraic_KernelIdeal_ReferenceIdeal := by
  intro m ρ m' ρ' _ hagree
  refine ⟨_, _, Cert.KernelIdeal.Read.run m ρ, ?_⟩
  refine (θ_run Cert.ReferenceIdeal.defs _ _).mono (fun _ h c => ?_)
    (Cert.ReferenceIdeal.ValueP.run (F := Ideal) m' ρ')
  obtain ⟨h0, h1, hargs⟩ := h c
  obtain ⟨a0, a1, a2, a3, a4, a5⟩ := hagree c
  refine ⟨h0.trans ?_, h1.trans ?_, hargs⟩
  · rw [Cert.ReferenceIdeal.Tail.res_mu, a0, a1, a2, a3]
  · rw [Cert.ReferenceIdeal.Tail.res_logstd, a0, a1, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
